-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg14 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg11 : FVec F S256 .f32) (main_arg12 : FVec F S256x256 .f32) (main_arg13 : FVec F S256x256 .f32) (main_arg14 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_v63 main_v67

def fn_part2 {F : FTy → Type} [FloatOps F] (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_v48 main_v49 main_v50

def fn_part1 {F : FTy → Type} [FloatOps F] (main_arg4 : FVec F S256x256 .f32) (main_arg5 : FVec F S256 .f32) (main_arg6 : FVec F S256x256 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x256 .f32) (main_arg1 : FVec F S65536x256 .f32) (main_arg2 : FVec F S65536x256 .f32) (main_arg3 : FVec F S256x256 .f32) (main_arg4 : FVec F S256x256 .f32) (main_arg5 : FVec F S256 .f32) (main_arg6 : FVec F S256x256 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256x256 .f32) (main_arg14 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x256 : Shape := ⟨2, ![65536, 256]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S1024x256 : Shape := ⟨2, ![1024, 256]⟩
abbrev S1024x1024 : Shape := ⟨2, ![1024, 1024]⟩
abbrev S1x1024 : Shape := ⟨2, ![1, 1024]⟩

abbrev nBuf : Space → Nat
  | .hbm => 22
  | .vmem => 13
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256x1024, .f32⟩
  | .hbm, ⟨16, _⟩ => ⟨S256x1024, .bf16⟩
  | .hbm, ⟨17, _⟩ => ⟨S256x1024, .f32⟩
  | .hbm, ⟨18, _⟩ => ⟨S256x1024, .bf16⟩
  | .hbm, ⟨19, _⟩ => ⟨S1024, .f32⟩
  | .hbm, ⟨20, _⟩ => ⟨S65536x256, .f32⟩
  | .hbm, ⟨21, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x1024, .bf16⟩
  | .local _ .vmem, ⟨7, _⟩ => ⟨S256x1024, .bf16⟩
  | .local _ .vmem, ⟨8, _⟩ => ⟨S1024, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S256x256_S256x256_S256x256_S256x256_S256x1024_d1 : Shape.Concatenates [S256x256, S256x256, S256x256, S256x256] S256x1024 1
  bitsLt_bf16_f32 : FTy.bits .bf16 < FTy.bits .f32
  concatenates_S256_S256_S256_S256_S1024_d0 : Shape.Concatenates [S256, S256, S256, S256] S1024 0
  inb_S1024x256_S1024x256_0_0 : ∀ a, (![0, 0] : Fin 2 → Nat) a + S1024x256.size a ≤ S1024x256.size a
  h_S1024x256 : 0 < S1024x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S65536x256.size a
  hwx0_6 : ∀ i : grid0.Coords, EltTy.bits .f32 = 32 ∨ (Rect.block (s := S65536x256) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S65536x256.size a
  hwx0_7 : ∀ i : grid0.Coords, EltTy.bits .f32 = 32 ∨ (Rect.block (s := S65536x256) S1024x256.size (cc0_transform_7 i) (hinb0_7 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S256x1024 : Shape := ⟨2, ![256, 1024]⟩
abbrev S1024 : Shape := ⟨1, ![1024]⟩
abbrev S65536x1024 : Shape := ⟨2, ![65536, 1024]⟩
abbrev S1x1024 : Shape := ⟨2, ![1, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256x1024, .f32⟩
  | .hbm, ⟨16, _⟩ => ⟨S256x1024, .f32⟩
  | .hbm, ⟨17, _⟩ => ⟨S1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S_, .f32⟩
  | .hbm, ⟨31, _⟩ => ⟨S65536x256, .f32⟩
  | .hbm, ⟨32, _⟩ => ⟨S65536x256, .f32⟩
  | .hbm, ⟨33, _⟩ => ⟨S_, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S_, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S65536x256, .f32⟩
  | .hbm, ⟨46, _⟩ => ⟨S_, .f32⟩
  | .hbm, ⟨47, _⟩ => ⟨S65536x256, .f32⟩
  | .hbm, ⟨48, _⟩ => ⟨S65536x256, .f32⟩
  | .hbm, ⟨49, _⟩ => ⟨S_, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | .hbm, ⟨54, _⟩ => ⟨S65536x256, .f32⟩
  | .hbm, ⟨55, _⟩ => ⟨S65536x256, .f32⟩
  | .hbm, ⟨56, _⟩ => ⟨S65536x256, .f32⟩
  | .hbm, ⟨57, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S256x256_S256x256_S256x256_S256x256_S256x1024_d1 : Shape.Concatenates [S256x256, S256x256, S256x256, S256x256] S256x1024 1
  concatenates_S256_S256_S256_S256_S1024_d0 : Shape.Concatenates [S256, S256, S256, S256] S1024 0
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  slices_S65536x1024_S65536x256_0_256 : S65536x1024.Slices ![0, 256] S65536x256
  slices_S65536x1024_S65536x256_0_512 : S65536x1024.Slices ![0, 512] S65536x256
  slices_S65536x1024_S65536x256_0_768 : S65536x1024.Slices ![0, 768] S65536x256
  bcast_S_S65536x256 : S_.BroadcastsInDim S65536x256 (![] : Fin 0 → Fin S65536x256.rank)
  dot_S65536x256_S256x1024_S65536x1024_1_0_0_1_n_n_wf : DotDims.WF S65536x256 S256x1024 S65536x1024 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf

class Facts : Prop extends Facts₀ where

variable [Facts]
-- ==== Proof.LstmLaunchBits.lean ====
import proofs.«150040_j1090921693307_2_alg».proof.Proof.Gen.Kernel.Launch
import proofs.«150040_j1090921693307_2_alg».proof.Proof.Gen.Kernel.Skeleton
import proofs.«150040_j1090921693307_2_alg».proof.Proof.Gen.Kernel.Points
import Idealize.ShloMosaic.Lib.Pipeline.FrameBody
import Idealize.ShloMosaic.Lib.Ring
import Idealize.ShloMosaic.Lib.Tactic

/-!
# The LSTM cell's launch runs to its end and leaves its arguments alone

The program concatenates the four input-to-hidden matrices, the four hidden-to-hidden matrices and the four biases
into one `256 × 1024` matrix each (rounded to bf16) and one vector of 1024, and then runs one launch over 64 grid
points. Point `t` is handed rows `1024 t … 1024 t + 1023` of `x`, `h_prev` and `c_prev`, the two whole matrices and the
whole bias; it loads all six, computes the new hidden and cell rows, and overwrites its two output blocks whole.

So each point is one straight-line body: six loads of whole blocks, two stores covering whole blocks. This file states
what each output block holds after the body as a function of the six input blocks (`hiddenBlock`, `cellBlock`), proves
the body's triple, and hands the per-point obligation to the pipeline library, which gives termination, absence of
faults, the argument arrays unchanged, and each output array as the blocks written back.
-/

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the launch finds -/

/-- What core `c`'s buffers hold when the launch starts: the memory handed over, after the three concatenations and the
    two roundings. -/
abbrev entry (c : Dev nD) (b : Ref sig .tc) : Buf (Elt F) ((c : Thread nD τ).loc b) :=
  StableHlo.after hostOps0 (fun b => m (c, b)) b

/-- None of the five operations allocates a buffer. -/
theorem hostOps0_fresh : (hostOps0 : List (HloOp τ sig (Elt F))).Forall fun op => op.fresh = ∅ := by
  simp only [List.Forall]; repeat' constructor

/-- The program is those five operations followed by the launch. -/
theorem main_upto_launch (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- None of the five host operations writes argument 0, so the launch finds it as it was handed over. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 1, so the launch finds it as it was handed over. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 2, so the launch finds it as it was handed over. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 3, so the launch finds it as it was handed over. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 4, so the launch finds it as it was handed over. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 5, so the launch finds it as it was handed over. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 6, so the launch finds it as it was handed over. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 7, so the launch finds it as it was handed over. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 8, so the launch finds it as it was handed over. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 9, so the launch finds it as it was handed over. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 10, so the launch finds it as it was handed over. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 11, so the launch finds it as it was handed over. -/
theorem entry_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 12, so the launch finds it as it was handed over. -/
theorem entry_arg12 (c : Dev nD) : entry m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 13, so the launch finds it as it was handed over. -/
theorem entry_arg13 (c : Dev nD) : entry m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 14, so the launch finds it as it was handed over. -/
theorem entry_arg14 (c : Dev nD) : entry m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, Finset.mem_singleton]
    repeat' apply And.intro
    all_goals exact StableHlo.devRef_ne_of_ne (by decide)))

/-! ## Blocks -/

/-- The block of window `w` at grid point `t`, cut out of the window's array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! Each of the six input windows has its block in its current buffer at every point: a moving window (the three row
    blocks) is fetched afresh, a resident one (the two matrices and the bias) was fetched at the first point, its block
    index never moves, and the body leaves it as it was. This holds for any proof data over the arrays found at the
    launch whose body returns the input buffers unchanged. -/
theorem held_in0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_in1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_in2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_in3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_in4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_in5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## From the library's post to the arguments unchanged -/

/-- In any final state the library's post describes: the three row arrays are windows' arrays that no point writes
    back, so they end as found; the twelve gate parameters are no window's array, so they end as found; and what was
    found is what was handed over. -/
theorem args_kept_of (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c)⟩

/-- So a run to the library's post is a run that leaves the fifteen arguments unchanged. -/
theorem args_unchanged_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept_of m dats hA r h c) h

/-! ## One point's body -/

/-- The whole `1024 × 256` block, the whole `256 × 1024` matrix, the whole bias: the only rectangles the body touches. -/
abbrev rowsRect : Rect S1024x256 := Rect.unit (s := S1024x256) ![0, 0] S1024x256.size inb_S1024x256_S1024x256_0_0
abbrev matRect : Rect S256x1024 := Rect.unit (s := S256x1024) ![0, 0] S256x1024.size inb_S256x1024_S256x1024_0_0
abbrev biasRect : Rect S1024 := Rect.unit (s := S1024) ![0] S1024.size inb_S1024_S1024_0

/-- The new hidden rows a point leaves in its first output buffer: the one store, as the one piece covering the buffer,
    its value the body's arithmetic of the six loaded blocks (rows of `x`, of `h_prev`, of `c_prev`; the two matrices; the bias). -/
def hiddenBlock (x h cp : Vec F S1024x256 .f32) (wx wh : Vec F S256x1024 .bf16) (b : Vec F S1024 .f32) : Vec F S1024x256 .f32 :=
  View.canon [⟨rowsRect, k0_pay3 (View.ld x rowsRect) (View.ld h rowsRect) (View.ld wx matRect) (View.ld wh matRect) (View.ld b biasRect) (View.ld cp rowsRect)⟩]

/-- The new cell rows a point leaves in its second output buffer, likewise. -/
def cellBlock (x h cp : Vec F S1024x256 .f32) (wx wh : Vec F S256x1024 .bf16) (b : Vec F S1024 .f32) : Vec F S1024x256 .f32 :=
  View.canon [⟨rowsRect, k0_pay2 (View.ld x rowsRect) (View.ld h rowsRect) (View.ld wx matRect) (View.ld wh matRect) (View.ld b biasRect) (View.ld cp rowsRect)⟩]

/-- One store through the whole rectangle covers the buffer. -/
theorem rows_covered (p0 : Vec F S1024x256 .f32) (y : S1024x256.Idx) :
    ∃ pc ∈ ([⟨rowsRect, p0⟩] : List (View.Piece (Elt F) S1024x256 .f32)), y ∈ pc.1.set :=
  View.cover_of_tiled [⟨rowsRect, p0⟩] S1024x256.size (by rfl) y

set_option maxHeartbeats 1000000 in
/-- The body on whole buffers — the six inputs' holding `x h cp wx wh b`, the two outputs' anything — runs to its
    return with the inputs' as they were and the outputs' at `hiddenBlock` and `cellBlock` of them. -/
theorem body_triple (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S1024x256 .f32) (harg3 : arg3.IsWhole) (arg4 : Memref sig .tc .vmem S256x1024 .bf16) (harg4 : arg4.IsWhole)
    (arg5 : Memref sig .tc .vmem S256x1024 .bf16) (harg5 : arg5.IsWhole) (arg6 : Memref sig .tc .vmem S1024 .f32) (harg6 : arg6.IsWhole)
    (arg7 : Memref sig .tc .vmem S1024x256 .f32) (harg7 : arg7.IsWhole) (arg8 : Memref sig .tc .vmem S1024x256 .f32) (harg8 : arg8.IsWhole)
    (x h cp : Vec F S1024x256 .f32) (wx wh : Vec F S256x1024 .bf16) (b : Vec F S1024 .f32) (K : PUnit → sProp 𝕄) :
    iprop(owns (c : Thread nD τ) arg1 fullShare x ∗ owns (c : Thread nD τ) arg2 fullShare h ∗ owns (c : Thread nD τ) arg3 fullShare cp
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cp
            ∗ owns (c : Thread nD τ) arg4 fullShare wx ∗ owns (c : Thread nD τ) arg5 fullShare wh ∗ owns (c : Thread nD τ) arg6 fullShare b
            ∗ owns (c : Thread nD τ) arg7 fullShare (hiddenBlock x h cp wx wh b) ∗ owns (c : Thread nD τ) arg8 fullShare (cellBlock x h cp wx wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (rows_covered _)
  iexists _; isplitr
  swap; · iexact H8
  ipureintro
  exact View.read_writes_eq_canon _ _ _ (rows_covered _)

/-! ## The proof data handed to the pipeline library -/

/-- On core `c`: the arrays are those the launch finds; after the body at point `t` each input buffer holds its block
    and the two output buffers the new hidden and cell rows of the six input blocks; the body keeps nothing of its own
    between points, owes no one a signal, and holds every buffer whole. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenBlock (blockAt m c 0 t) (blockAt m c 1 t) (blockAt m c 2 t) (blockAt m c 3 t) (blockAt m c 4 t) (blockAt m c 5 t)
    | ⟨7, _⟩ => cellBlock (blockAt m c 0 t) (blockAt m c 1 t) (blockAt m c 2 t) (blockAt m c 3 t) (blockAt m c 4 t) (blockAt m c 5 t)
  Φ _ := Pipeline.ΦA spec0 c
  q _ := fullShare
  owed _ := 0

/-- The data's arrays are the found ones. -/
theorem A_eq (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t
    = hiddenBlock (blockAt m c 0 t) (blockAt m c 1 t) (blockAt m c 2 t) (blockAt m c 3 t) (blockAt m c 4 t) (blockAt m c 5 t) := by dsimp only [dats]
theorem after_7 (c : Dev nD) (t : Fin cfg0.N) : (dats m 0 c).after 7 t
    = cellBlock (blockAt m c 0 t) (blockAt m c 1 t) (blockAt m c 2 t) (blockAt m c 3 t) (blockAt m c 4 t) (blockAt m c 5 t) := by dsimp only [dats]

theorem held_0 (c : Dev nD) (t : Fin cfg0.N) (d) : (dats m 0 c).before 0 t d = blockAt m c 0 t :=
  held_in0_of m (dats m 0 c) (A_eq m c 0) (after_0 m c) t d
theorem held_1 (c : Dev nD) (t : Fin cfg0.N) (d) : (dats m 0 c).before 1 t d = blockAt m c 1 t :=
  held_in1_of m (dats m 0 c) (A_eq m c 1) (after_1 m c) t d
theorem held_2 (c : Dev nD) (t : Fin cfg0.N) (d) : (dats m 0 c).before 2 t d = blockAt m c 2 t :=
  held_in2_of m (dats m 0 c) (A_eq m c 2) (after_2 m c) t d
theorem held_3 (c : Dev nD) (t : Fin cfg0.N) (d) : (dats m 0 c).before 3 t d = blockAt m c 3 t :=
  held_in3_of m (dats m 0 c) (A_eq m c 3) (after_3 m c) t d
theorem held_4 (c : Dev nD) (t : Fin cfg0.N) (d) : (dats m 0 c).before 4 t d = blockAt m c 4 t :=
  held_in4_of m (dats m 0 c) (A_eq m c 4) (after_4 m c) t d
theorem held_5 (c : Dev nD) (t : Fin cfg0.N) (d) : (dats m 0 c).before 5 t d = blockAt m c 5 t :=
  held_in5_of m (dats m 0 c) (A_eq m c 5) (after_5 m c) t d

/-! ## The obligation at a generic point -/

/-- What the pipeline hands the body at point `t`, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it must hand back. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the input buffers hold their blocks, so the body's triple applies; what the body does not touch passes through. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [held_0, held_1, held_2, held_3, held_4, held_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's per-point obligation. -/
theorem body_obligation (c : Dev nD) : BodyObligation (dats (F := F) m 0 c) (defs₀ (F := F)) Variants.none () Set.univ := fun t => by
  rw [bigSep_W0, bigSep_W0]
  exact point_sound m c t

/-! ## The run -/

set_option backward.isDefEq.respectTransparency.types false in
/-- Every weakly fair execution of the program terminates without a fault; at the end each window's array holds what
    the library computes from the proof data (an input array as found, an output array the blocks written back), and
    every other unscoped buffer is as the launch found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_upto_launch m Variants.none) (hA := A_eq m) (hΦ := fun _ _ => rfl)

/-- The program runs to its end, faults nowhere, and its fifteen argument arrays end unchanged. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  args_unchanged_of m ρ (dats m) (A_eq m) (run_main m ρ)

end Cert.Kernel.Launch

end
-- ==== Proof.LstmLaunchIdeal.lean ====
import proofs.«150040_j1090921693307_2_alg».proof.Proof.Gen.KernelIdeal.Launch
import proofs.«150040_j1090921693307_2_alg».proof.Proof.Gen.KernelIdeal.Skeleton
import proofs.«150040_j1090921693307_2_alg».proof.Proof.Gen.KernelIdeal.Points
import Idealize.ShloMosaic.Lib.Pipeline.FrameBody
import Idealize.ShloMosaic.Lib.Ring
import Idealize.ShloMosaic.Lib.Tactic

/-!
# The LSTM cell's launch runs to its end and leaves its arguments alone

The program concatenates the four input-to-hidden matrices, the four hidden-to-hidden matrices and the four biases
into one `256 × 1024` matrix each (rounded to bf16) and one vector of 1024, and then runs one launch over 64 grid
points. Point `t` is handed rows `1024 t … 1024 t + 1023` of `x`, `h_prev` and `c_prev`, the two whole matrices and the
whole bias; it loads all six, computes the new hidden and cell rows, and overwrites its two output blocks whole.

So each point is one straight-line body: six loads of whole blocks, two stores covering whole blocks. This file states
what each output block holds after the body as a function of the six input blocks (`hiddenBlock`, `cellBlock`), proves
the body's triple, and hands the per-point obligation to the pipeline library, which gives termination, absence of
faults, the argument arrays unchanged, and each output array as the blocks written back.
-/

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the launch finds -/

/-- What core `c`'s buffers hold when the launch starts: the memory handed over, after the three concatenations and the
    two roundings. -/
abbrev entry (c : Dev nD) (b : Ref sig .tc) : Buf (Elt F) ((c : Thread nD τ).loc b) :=
  StableHlo.after hostOps0 (fun b => m (c, b)) b

/-- None of the five operations allocates a buffer. -/
theorem hostOps0_fresh : (hostOps0 : List (HloOp τ sig (Elt F))).Forall fun op => op.fresh = ∅ := by
  simp only [List.Forall]; repeat' constructor

/-- The program is those five operations followed by the launch. -/
theorem main_upto_launch (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- None of the five host operations writes argument 0, so the launch finds it as it was handed over. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 1, so the launch finds it as it was handed over. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 2, so the launch finds it as it was handed over. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 3, so the launch finds it as it was handed over. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 4, so the launch finds it as it was handed over. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 5, so the launch finds it as it was handed over. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 6, so the launch finds it as it was handed over. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 7, so the launch finds it as it was handed over. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 8, so the launch finds it as it was handed over. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 9, so the launch finds it as it was handed over. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 10, so the launch finds it as it was handed over. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 11, so the launch finds it as it was handed over. -/
theorem entry_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 12, so the launch finds it as it was handed over. -/
theorem entry_arg12 (c : Dev nD) : entry m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 13, so the launch finds it as it was handed over. -/
theorem entry_arg13 (c : Dev nD) : entry m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, Finset.mem_singleton]
    repeat' apply And.intro
    all_goals exact StableHlo.devRef_ne_of_ne (by decide)))
/-- None of the five host operations writes argument 14, so the launch finds it as it was handed over. -/
theorem entry_arg14 (c : Dev nD) : entry m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, Finset.mem_singleton]
    repeat' apply And.intro
    all_goals exact StableHlo.devRef_ne_of_ne (by decide)))

/-! ## Blocks -/

/-- The block of window `w` at grid point `t`, cut out of the window's array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! Each of the six input windows has its block in its current buffer at every point: a moving window (the three row
    blocks) is fetched afresh, a resident one (the two matrices and the bias) was fetched at the first point, its block
    index never moves, and the body leaves it as it was. This holds for any proof data over the arrays found at the
    launch whose body returns the input buffers unchanged. -/
theorem held_in0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_in1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_in2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_in3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_in4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_in5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## From the library's post to the arguments unchanged -/

/-- In any final state the library's post describes: the three row arrays are windows' arrays that no point writes
    back, so they end as found; the twelve gate parameters are no window's array, so they end as found; and what was
    found is what was handed over. -/
theorem args_kept_of (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c)⟩

/-- So a run to the library's post is a run that leaves the fifteen arguments unchanged. -/
theorem args_unchanged_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept_of m dats hA r h c) h

/-! ## One point's body -/

/-- The whole `1024 × 256` block, the whole `256 × 1024` matrix, the whole bias: the only rectangles the body touches. -/
abbrev rowsRect : Rect S1024x256 := Rect.unit (s := S1024x256) ![0, 0] S1024x256.size inb_S1024x256_S1024x256_0_0
abbrev matRect : Rect S256x1024 := Rect.unit (s := S256x1024) ![0, 0] S256x1024.size inb_S256x1024_S256x1024_0_0
abbrev biasRect : Rect S1024 := Rect.unit (s := S1024) ![0] S1024.size inb_S1024_S1024_0

/-- The new hidden rows a point leaves in its first output buffer: the one store, as the one piece covering the buffer,
    its value the body's arithmetic of the six loaded blocks (rows of `x`, of `h_prev`, of `c_prev`; the two matrices; the bias). -/
def hiddenBlock (x h cp : Vec F S1024x256 .f32) (wx wh : Vec F S256x1024 .bf16) (b : Vec F S1024 .f32) : Vec F S1024x256 .f32 :=
  View.canon [⟨rowsRect, k0_pay3 (View.ld x rowsRect) (View.ld h rowsRect) (View.ld wx matRect) (View.ld wh matRect) (View.ld b biasRect) (View.ld cp rowsRect)⟩]

/-- The new cell rows a point leaves in its second output buffer, likewise. -/
def cellBlock (x h cp : Vec F S1024x256 .f32) (wx wh : Vec F S256x1024 .bf16) (b : Vec F S1024 .f32) : Vec F S1024x256 .f32 :=
  View.canon [⟨rowsRect, k0_pay2 (View.ld x rowsRect) (View.ld h rowsRect) (View.ld wx matRect) (View.ld wh matRect) (View.ld b biasRect) (View.ld cp rowsRect)⟩]

/-- One store through the whole rectangle covers the buffer. -/
theorem rows_covered (p0 : Vec F S1024x256 .f32) (y : S1024x256.Idx) :
    ∃ pc ∈ ([⟨rowsRect, p0⟩] : List (View.Piece (Elt F) S1024x256 .f32)), y ∈ pc.1.set :=
  View.cover_of_tiled [⟨rowsRect, p0⟩] S1024x256.size (by rfl) y

set_option maxHeartbeats 1000000 in
/-- The body on whole buffers — the six inputs' holding `x h cp wx wh b`, the two outputs' anything — runs to its
    return with the inputs' as they were and the outputs' at `hiddenBlock` and `cellBlock` of them. -/
theorem body_triple (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S1024x256 .f32) (harg3 : arg3.IsWhole) (arg4 : Memref sig .tc .vmem S256x1024 .bf16) (harg4 : arg4.IsWhole)
    (arg5 : Memref sig .tc .vmem S256x1024 .bf16) (harg5 : arg5.IsWhole) (arg6 : Memref sig .tc .vmem S1024 .f32) (harg6 : arg6.IsWhole)
    (arg7 : Memref sig .tc .vmem S1024x256 .f32) (harg7 : arg7.IsWhole) (arg8 : Memref sig .tc .vmem S1024x256 .f32) (harg8 : arg8.IsWhole)
    (x h cp : Vec F S1024x256 .f32) (wx wh : Vec F S256x1024 .bf16) (b : Vec F S1024 .f32) (K : PUnit → sProp 𝕄) :
    iprop(owns (c : Thread nD τ) arg1 fullShare x ∗ owns (c : Thread nD τ) arg2 fullShare h ∗ owns (c : Thread nD τ) arg3 fullShare cp
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cp
            ∗ owns (c : Thread nD τ) arg4 fullShare wx ∗ owns (c : Thread nD τ) arg5 fullShare wh ∗ owns (c : Thread nD τ) arg6 fullShare b
            ∗ owns (c : Thread nD τ) arg7 fullShare (hiddenBlock x h cp wx wh b) ∗ owns (c : Thread nD τ) arg8 fullShare (cellBlock x h cp wx wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (rows_covered _)
  iexists _; isplitr
  swap; · iexact H8
  ipureintro
  exact View.read_writes_eq_canon _ _ _ (rows_covered _)

/-! ## The proof data handed to the pipeline library -/

/-- On core `c`: the arrays are those the launch finds; after the body at point `t` each input buffer holds its block
    and the two output buffers the new hidden and cell rows of the six input blocks; the body keeps nothing of its own
    between points, owes no one a signal, and holds every buffer whole. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenBlock (blockAt m c 0 t) (blockAt m c 1 t) (blockAt m c 2 t) (blockAt m c 3 t) (blockAt m c 4 t) (blockAt m c 5 t)
    | ⟨7, _⟩ => cellBlock (blockAt m c 0 t) (blockAt m c 1 t) (blockAt m c 2 t) (blockAt m c 3 t) (blockAt m c 4 t) (blockAt m c 5 t)
  Φ _ := Pipeline.ΦA spec0 c
  q _ := fullShare
  owed _ := 0

/-- The data's arrays are the found ones. -/
theorem A_eq (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t
    = hiddenBlock (blockAt m c 0 t) (blockAt m c 1 t) (blockAt m c 2 t) (blockAt m c 3 t) (blockAt m c 4 t) (blockAt m c 5 t) := by dsimp only [dats]
theorem after_7 (c : Dev nD) (t : Fin cfg0.N) : (dats m 0 c).after 7 t
    = cellBlock (blockAt m c 0 t) (blockAt m c 1 t) (blockAt m c 2 t) (blockAt m c 3 t) (blockAt m c 4 t) (blockAt m c 5 t) := by dsimp only [dats]

theorem held_0 (c : Dev nD) (t : Fin cfg0.N) (d) : (dats m 0 c).before 0 t d = blockAt m c 0 t :=
  held_in0_of m (dats m 0 c) (A_eq m c 0) (after_0 m c) t d
theorem held_1 (c : Dev nD) (t : Fin cfg0.N) (d) : (dats m 0 c).before 1 t d = blockAt m c 1 t :=
  held_in1_of m (dats m 0 c) (A_eq m c 1) (after_1 m c) t d
theorem held_2 (c : Dev nD) (t : Fin cfg0.N) (d) : (dats m 0 c).before 2 t d = blockAt m c 2 t :=
  held_in2_of m (dats m 0 c) (A_eq m c 2) (after_2 m c) t d
theorem held_3 (c : Dev nD) (t : Fin cfg0.N) (d) : (dats m 0 c).before 3 t d = blockAt m c 3 t :=
  held_in3_of m (dats m 0 c) (A_eq m c 3) (after_3 m c) t d
theorem held_4 (c : Dev nD) (t : Fin cfg0.N) (d) : (dats m 0 c).before 4 t d = blockAt m c 4 t :=
  held_in4_of m (dats m 0 c) (A_eq m c 4) (after_4 m c) t d
theorem held_5 (c : Dev nD) (t : Fin cfg0.N) (d) : (dats m 0 c).before 5 t d = blockAt m c 5 t :=
  held_in5_of m (dats m 0 c) (A_eq m c 5) (after_5 m c) t d

/-! ## The obligation at a generic point -/

/-- What the pipeline hands the body at point `t`, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it must hand back. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the input buffers hold their blocks, so the body's triple applies; what the body does not touch passes through. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [held_0, held_1, held_2, held_3, held_4, held_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's per-point obligation. -/
theorem body_obligation (c : Dev nD) : BodyObligation (dats (F := F) m 0 c) (defs₀ (F := F)) Variants.none () Set.univ := fun t => by
  rw [bigSep_W0, bigSep_W0]
  exact point_sound m c t

/-! ## The run -/

set_option backward.isDefEq.respectTransparency.types false in
/-- Every weakly fair execution of the program terminates without a fault; at the end each window's array holds what
    the library computes from the proof data (an input array as found, an output array the blocks written back), and
    every other unscoped buffer is as the launch found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_upto_launch m Variants.none) (hA := A_eq m) (hΦ := fun _ _ => rfl)

/-- The program runs to its end, faults nowhere, and its fifteen argument arrays end unchanged. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  args_unchanged_of m ρ (dats m) (A_eq m) (run_main m ρ)

end Cert.KernelIdeal.Launch

end
-- ==== Proof.LstmSpec.lean ====
import Idealize.ShloMosaic.PureOps.Ideal
import Idealize.ShloMosaic.Lib.ValueIdx

/-!
# One step of an LSTM cell, entry by entry, over the extended reals

For a batch of 65536 rows and hidden width 256. The four gates' input-to-hidden matrices sit side by side in one
`256 × 1024` matrix `wx` (columns `0…255` the input gate, `256…511` the forget gate, `512…767` the output gate,
`768…1023` the candidate), likewise the hidden-to-hidden matrices in `wh` and the biases in `b`.

For row `r` and gate column `n` the pre-activation is
`gate r n = (Σ_k x[r,k] · wx[k,n] + Σ_k h[r,k] · wh[k,n]) + b[n]`,
and for hidden unit `j`
`c'[r,j] = σ(gate r (256+j)) · c[r,j] + σ(gate r j) · tanh(gate r (768+j))`,
`h'[r,j] = σ(gate r (512+j)) · tanh(c'[r,j])`,
with `σ x = 1 / (1 + e^(−x))` and every operation the exact one on the extended reals.
-/

noncomputable section

namespace Cert.LstmSpec

open Idealize.ShloMosaic Idealize.ShloMosaic.ValueIdx

/-- Shapes: a batch of rows, a fused gate matrix, a fused bias. -/
abbrev Rows : Shape := ⟨2, ![65536, 256]⟩
abbrev Mat : Shape := ⟨2, ![256, 1024]⟩
abbrev Bias : Shape := ⟨1, ![1024]⟩

/-- Column `q + j` of the fused matrices: hidden unit `j` of the gate whose columns start at `q`. -/
def col (q : Nat) (hq : q + 256 ≤ 1024) (j : Fin 256) : Fin 1024 := ⟨q + j.val, by have := j.isLt; omega⟩

/-- The pre-activation of gate column `n` for batch row `r`. -/
def gate (x h : Rows.Idx → EReal) (wx wh : Mat.Idx → EReal) (b : Bias.Idx → EReal) (r : Fin 65536) (n : Fin 1024) : EReal :=
  ((∑ k : Fin 256, x (ix2 r k) * wx (ix2 k n)) + ∑ k : Fin 256, h (ix2 r k) * wh (ix2 k n)) + b (ix1 n)

/-- The new cell state of hidden unit `j` in row `r`: forget gate times old cell plus input gate times candidate. -/
def cellAt (x h cp : Rows.Idx → EReal) (wx wh : Mat.Idx → EReal) (b : Bias.Idx → EReal) (r : Fin 65536) (j : Fin 256) : EReal :=
  Ideal.logistic (gate x h wx wh b r (col 256 (by decide) j)) * cp (ix2 r j)
    + Ideal.logistic (gate x h wx wh b r (col 0 (by decide) j)) * Ideal.tanh (gate x h wx wh b r (col 768 (by decide) j))

/-- The new hidden state: output gate times tanh of the new cell state. -/
def hiddenAt (x h cp : Rows.Idx → EReal) (wx wh : Mat.Idx → EReal) (b : Bias.Idx → EReal) (r : Fin 65536) (j : Fin 256) : EReal :=
  Ideal.logistic (gate x h wx wh b r (col 512 (by decide) j)) * Ideal.tanh (cellAt x h cp wx wh b r j)

/-- The new cell array. -/
def cell (x h cp : Rows.Idx → EReal) (wx wh : Mat.Idx → EReal) (b : Bias.Idx → EReal) : Rows.Idx → EReal :=
  fun i => cellAt x h cp wx wh b (i 0) (i 1)

/-- The new hidden array. -/
def hidden (x h cp : Rows.Idx → EReal) (wx wh : Mat.Idx → EReal) (b : Bias.Idx → EReal) : Rows.Idx → EReal :=
  fun i => hiddenAt x h cp wx wh b (i 0) (i 1)

end Cert.LstmSpec

end
-- ==== Proof.LstmPoint.lean ====
import proofs.«150040_j1090921693307_2_alg».proof.Proof.Gen.KernelIdeal.Skeleton
import proofs.«150040_j1090921693307_2_alg».proof.Proof.LstmSpec
import Idealize.ShloMosaic.Lib.Pipeline.Value
import Idealize.ShloMosaic.Lib.ValueIdx
import Idealize.ShloMosaic.PureOps.Ideal.Laws

/-!
# One grid point's arithmetic, entry by entry

A grid point holds 1024 rows of `x`, `h_prev` and `c_prev`, the two fused matrices and the fused bias. Its body forms
the `1024 × 1024` block of pre-activations (two matrix products into a zero accumulator, added, plus the bias laid
along every row), cuts it into the four gates' column ranges, and combines them. Read at block row `p` and hidden unit
`j`, each value is the specification's value at the batch row `r` that block row `p` is — provided the block's rows
are rows `r` of the batch arrays. Rounding to bf16 on the way into the products is the identity on extended reals.
-/

noncomputable section

namespace Cert.KernelIdeal.LstmPoint

open Cert.KernelIdeal Cert.KernelIdeal.Gen Cert.LstmSpec
open Idealize.ShloMosaic Idealize.ShloMosaic.ValueIdx

abbrev D := dot_S1024x256_S256x1024_S1024x1024_1_0_0_1_n_n

/-! ## The matrix product: row `p` of the left factor against column `n` of the right -/

theorem lhs_row (i : S1024x1024.Idx) (q : D.contr.Idx) : (D.lhsIdx i q 0).val = (i 0).val := by
  unfold DotDims.lhsIdx
  rw [dif_neg (show ¬(0 : Fin S1024x256.rank) ∈ D.lhsBatch by decide), dif_pos (show (0 : Fin S1024x256.rank) ∈ D.lhsNonContracting by decide)]
  rfl
theorem lhs_contr (i : S1024x1024.Idx) (q : D.contr.Idx) : (D.lhsIdx i q 1).val = (q ⟨0, by decide⟩).val :=
  D.lhsIdx_val_of_single rfl i q
theorem rhs_contr (i : S1024x1024.Idx) (q : D.contr.Idx) : (D.rhsIdx i q 0).val = (q ⟨0, by decide⟩).val :=
  D.rhsIdx_val_of_single rfl i q
theorem rhs_col (i : S1024x1024.Idx) (q : D.contr.Idx) : (D.rhsIdx i q 1).val = (i 1).val := by
  unfold DotDims.rhsIdx
  rw [dif_neg (show ¬(1 : Fin S256x1024.rank) ∈ D.rhsBatch by decide), dif_pos (show (1 : Fin S256x1024.rank) ∈ D.rhsNonContracting by decide)]
  rfl

/-- A product into the zero accumulator, at row `p` and column `n`, is the sum over the shared axis. -/
theorem product_at (a : FVec Ideal S1024x256 .bf16) (w : FVec Ideal S256x1024 .bf16) (p n : Fin 1024) :
    matmul (F := Ideal) D none a w (constant (F := Ideal) S1024x1024 .f32 0x00000000#32) (ix2 p n) = ∑ k : Fin 256, a (ix2 p k) * w (ix2 k n) := by
  show FloatOps.matmul D none a w (constant (F := Ideal) S1024x1024 .f32 0x00000000#32) (ix2 p n) = _
  rw [Ideal.matmul_constant_zero_apply, ← Equiv.sum_comp (ValueIdx.contrEquiv1 D 256 rfl rfl).symm]
  refine Finset.sum_congr rfl fun k _ => ?_
  have hk := ValueIdx.contrEquiv1_symm_val D 256 rfl rfl k
  have el : D.lhsIdx (ix2 p n) ((ValueIdx.contrEquiv1 D 256 rfl rfl).symm k) = ix2 p k := funext fun a => Fin.ext (by
    match a with
    | ⟨0, _⟩ => exact lhs_row _ _
    | ⟨1, _⟩ => exact (lhs_contr _ _).trans hk)
  have er : D.rhsIdx (ix2 p n) ((ValueIdx.contrEquiv1 D 256 rfl rfl).symm k) = ix2 k n := funext fun a => Fin.ext (by
    match a with
    | ⟨0, _⟩ => exact (rhs_contr _ _).trans hk
    | ⟨1, _⟩ => exact rhs_col _ _)
  rw [el, er]

/-! ## The bias along every row, the gates' column ranges -/

/-- The bias vector recast as one row and laid along 1024 rows reads, at any row, the bias of the column. -/
theorem bias_at (b : Vec Ideal S1024 .f32) (h0 : S1024.ShapeCasts S1024) (h1 : S1024.ShapeCasts S1x1024)
    (h2 : S1x1024.Broadcasts S1024x1024) (p n : Fin 1024) :
    broadcastTo S1024x1024 (shapeCast S1x1024 (shapeCast S1024 b h0) h1) h2 (ix2 p n) = b (ix1 n) := by
  rw [shapeCast_self]
  have e1 := broadcastTo_apply (shapeCast S1x1024 b h1) h2 (ix2 p n) (ix2 (0 : Fin 1) n) (by
    intro a
    match a with
    | ⟨0, _⟩ => rfl
    | ⟨1, _⟩ => show n.val = if (1024 : Nat) = 1 then 0 else n.val; rw [if_neg (by decide)])
  have e2 := shapeCast_apply b h1 (ix2 (0 : Fin 1) n) (ix1 n) (by
    rw [Shape.rowMajor_val_two, Shape.rowMajor_val_one]; show n.val = 0 * 1024 + n.val; omega)
  exact e1.trans e2

/-- The 256 columns starting at `q`, read at hidden unit `j`, are column `q + j`. -/
theorem columns_at (q : Nat) (hq : q + 256 ≤ 1024) (g : FVec Ideal S1024x1024 .f32) (hs : S1024x1024.Slices ![0, q] S1024x256)
    (p : Fin 1024) (j : Fin 256) :
    extractStridedSlice S1024x256 ![0, q] g hs (ix2 p j) = g (ix2 p (col q hq j)) :=
  extractStridedSlice_apply ![0, q] g hs (ix2 p j) (ix2 p (col q hq j)) (fun a => match a with
    | ⟨0, _⟩ => by show p.val = 0 + p.val; omega
    | ⟨1, _⟩ => by show q + j.val = q + j.val; rfl)

/-! ## The three values the body forms -/

section
variable (X H CP : Rows.Idx → EReal) (WX WH : Mat.Idx → EReal) (B : Bias.Idx → EReal) (r : Fin 65536)
variable (x h cp : Vec Ideal S1024x256 .f32) (wx wh : Vec Ideal S256x1024 .bf16) (b : Vec Ideal S1024 .f32) (p : Fin 1024)
variable (hx : ∀ k : Fin 256, x (ix2 p k) = X (ix2 r k)) (hh : ∀ k : Fin 256, h (ix2 p k) = H (ix2 r k))
variable (hwx : ∀ (k : Fin 256) (n : Fin 1024), wx (ix2 k n) = WX (ix2 k n)) (hwh : ∀ (k : Fin 256) (n : Fin 1024), wh (ix2 k n) = WH (ix2 k n))
variable (hb : ∀ n : Fin 1024, b (ix1 n) = B (ix1 n))

include hx hh hwx hwh hb in
/-- The pre-activations. -/
theorem gates_at (n : Fin 1024) : k0_pay1 (F := Ideal) x h wx wh b (ix2 p n) = gate X H WX WH B r n := by
  unfold k0_pay1 gate
  show (matmul (F := Ideal) D none (truncf (F := Ideal) .bf16 x _) (shapeCast S256x1024 wx _) (constant (F := Ideal) S1024x1024 .f32 0x00000000#32) (ix2 p n)
      + matmul (F := Ideal) D none (truncf (F := Ideal) .bf16 h _) (shapeCast S256x1024 wh _) (constant (F := Ideal) S1024x1024 .f32 0x00000000#32) (ix2 p n))
      + broadcastTo S1024x1024 (shapeCast S1x1024 (shapeCast S1024 b _) _) _ (ix2 p n) = _
  rw [product_at, product_at, bias_at, shapeCast_self, shapeCast_self, hb]
  refine congrArg (· + B (ix1 n)) (congr (congrArg _ (Finset.sum_congr rfl fun k _ => ?_)) (Finset.sum_congr rfl fun k _ => ?_))
  · show x (ix2 p k) * wx (ix2 k n) = _; rw [hx, hwx]
  · show h (ix2 p k) * wh (ix2 k n) = _; rw [hh, hwh]

variable (hcp : ∀ j : Fin 256, cp (ix2 p j) = CP (ix2 r j))

include hx hh hwx hwh hb hcp in
/-- The new cell rows. -/
theorem cell_at (j : Fin 256) : k0_pay2 (F := Ideal) x h wx wh b cp (ix2 p j) = cellAt X H CP WX WH B r j := by
  unfold k0_pay2 cellAt
  show Ideal.logistic (extractStridedSlice S1024x256 ![0, 256] (k0_pay1 (F := Ideal) x h wx wh b) _ (ix2 p j)) * cp (ix2 p j)
      + Ideal.logistic (extractStridedSlice S1024x256 ![0, 0] (k0_pay1 (F := Ideal) x h wx wh b) _ (ix2 p j))
        * Ideal.tanh (extractStridedSlice S1024x256 ![0, 768] (k0_pay1 (F := Ideal) x h wx wh b) _ (ix2 p j)) = _
  rw [columns_at 256 (by decide), columns_at 0 (by decide), columns_at 768 (by decide),
    gates_at X H WX WH B r x h wx wh b p hx hh hwx hwh hb, gates_at X H WX WH B r x h wx wh b p hx hh hwx hwh hb,
    gates_at X H WX WH B r x h wx wh b p hx hh hwx hwh hb, hcp]

include hx hh hwx hwh hb hcp in
/-- The new hidden rows. -/
theorem hidden_at (j : Fin 256) : k0_pay3 (F := Ideal) x h wx wh b cp (ix2 p j) = hiddenAt X H CP WX WH B r j := by
  unfold k0_pay3 hiddenAt
  show Ideal.logistic (extractStridedSlice S1024x256 ![0, 512] (k0_pay1 (F := Ideal) x h wx wh b) _ (ix2 p j))
      * Ideal.tanh (k0_pay2 (F := Ideal) x h wx wh b cp (ix2 p j)) = _
  rw [columns_at 512 (by decide), gates_at X H WX WH B r x h wx wh b p hx hh hwx hwh hb,
    cell_at X H CP WX WH B r x h cp wx wh b p hx hh hwx hwh hb hcp]

end

end Cert.KernelIdeal.LstmPoint

end
-- ==== Proof.LstmValue.lean ====
import proofs.«150040_j1090921693307_2_alg».proof.Proof.LstmLaunchIdeal
import proofs.«150040_j1090921693307_2_alg».proof.Proof.LstmPoint
import proofs.«150040_j1090921693307_2_alg».proof.Proof.LstmSpec
import Idealize.ShloMosaic.Lib.Pipeline.Value
import Idealize.ShloMosaic.Lib.StableHlo.Run

/-!
# What the two output arrays hold after the launch, at the ideal instance

The launch finds the three batch arrays as handed over, the two fused matrices as the concatenations of the four gate
matrices (rounding to bf16 is the identity on extended reals), and the fused bias as the concatenation of the four
biases. Grid point `t` is handed rows `1024 t … 1024 t + 1023`, so what it writes back to each output is block `t` of
one function of those arrays: the specification's new hidden array and new cell array. The 64 blocks tile the
`65536 × 256` arrays, so after the launch each output array is that function.
-/

set_option maxRecDepth 16384

noncomputable section

namespace Cert.KernelIdeal.LstmValue

open Cert.KernelIdeal Cert.KernelIdeal.Gen Cert.KernelIdeal.Launch Cert.LstmSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The fused parameters -/

/-- The four input-to-hidden matrices side by side. -/
def fusedWx (c : Dev nD) : S256x1024.Idx → EReal :=
  concatenate S256x1024 1 [⟨S256x256, (m ((c.tc : Thread nD τ).loc main_arg3))⟩, ⟨S256x256, (m ((c.tc : Thread nD τ).loc main_arg6))⟩, ⟨S256x256, (m ((c.tc : Thread nD τ).loc main_arg9))⟩, ⟨S256x256, (m ((c.tc : Thread nD τ).loc main_arg12))⟩] concatenates_S256x256_S256x256_S256x256_S256x256_S256x1024_d1

/-- The four hidden-to-hidden matrices side by side. -/
def fusedWh (c : Dev nD) : S256x1024.Idx → EReal :=
  concatenate S256x1024 1 [⟨S256x256, (m ((c.tc : Thread nD τ).loc main_arg4))⟩, ⟨S256x256, (m ((c.tc : Thread nD τ).loc main_arg7))⟩, ⟨S256x256, (m ((c.tc : Thread nD τ).loc main_arg10))⟩, ⟨S256x256, (m ((c.tc : Thread nD τ).loc main_arg13))⟩] concatenates_S256x256_S256x256_S256x256_S256x256_S256x1024_d1

/-- The four biases end to end. -/
def fusedBias (c : Dev nD) : S1024.Idx → EReal :=
  concatenate S1024 0 [⟨S256, (m ((c.tc : Thread nD τ).loc main_arg5))⟩, ⟨S256, (m ((c.tc : Thread nD τ).loc main_arg8))⟩, ⟨S256, (m ((c.tc : Thread nD τ).loc main_arg11))⟩, ⟨S256, (m ((c.tc : Thread nD τ).loc main_arg14))⟩] concatenates_S256_S256_S256_S256_S1024_d0

/-- The launch finds the first matrix operand at the fused input-to-hidden matrix. -/
theorem entry_wx (c : Dev nD) : (entry m c main_v1 : S256x1024.Idx → EReal) = fusedWx m c := by
  dsimp only [entry, hostOps0]
  after_results
  rfl

/-- The launch finds the second matrix operand at the fused hidden-to-hidden matrix. -/
theorem entry_wh (c : Dev nD) : (entry m c main_v3 : S256x1024.Idx → EReal) = fusedWh m c := by
  dsimp only [entry, hostOps0]
  after_results
  rfl

/-- The launch finds the bias operand at the fused bias. -/
theorem entry_bias (c : Dev nD) : (entry m c main_v4 : S1024.Idx → EReal) = fusedBias m c := by
  dsimp only [entry, hostOps0]
  after_results
  rfl

/-! ## Which block a point is handed -/

/-- The block index of each window at each of the 64 points: the row windows move with the point, the parameter
    windows stay at block 0. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

section Blocks
variable (c : Dev nD) (t : Fin cfg0.N) (p : Fin 1024) (r : Fin 65536) (hr : r.val = 1024 * t.val + p.val)

include hr in
/-- Block row `p` of the `x` block at point `t` is batch row `1024 t + p` of `x`. -/
theorem x_block_at (k : Fin 256) :
    (blockAt m c 0 t : Vec Ideal S1024x256 .f32) (ix2 p k) = ((m ((c.tc : Thread nD τ).loc main_arg0)) : S65536x256.Idx → EReal) (ix2 r k) := by
  obtain ⟨⟨e0, e1⟩, -⟩ := index_facts t
  unfold blockAt
  rw [View.read_apply]
  show entry m c main_arg0 _ = _
  rw [entry_arg0]
  refine congrArg (m ((c : Thread nD τ).loc main_arg0)) (funext fun a => Fin.ext ?_)
  match a with
  | ⟨0, _⟩ => show win0_0.index t (0 : Fin 2) * 1024 + 1 * p.val = r.val; rw [e0, hr]; omega
  | ⟨1, _⟩ => show win0_0.index t (1 : Fin 2) * 256 + 1 * k.val = k.val; rw [e1]; omega

include hr in
/-- Likewise for the `h_prev` block. -/
theorem h_block_at (k : Fin 256) :
    (blockAt m c 1 t : Vec Ideal S1024x256 .f32) (ix2 p k) = ((m ((c.tc : Thread nD τ).loc main_arg1)) : S65536x256.Idx → EReal) (ix2 r k) := by
  obtain ⟨-, ⟨e0, e1⟩, -⟩ := index_facts t
  unfold blockAt
  rw [View.read_apply]
  show entry m c main_arg1 _ = _
  rw [entry_arg1]
  refine congrArg (m ((c : Thread nD τ).loc main_arg1)) (funext fun a => Fin.ext ?_)
  match a with
  | ⟨0, _⟩ => show win0_1.index t (0 : Fin 2) * 1024 + 1 * p.val = r.val; rw [e0, hr]; omega
  | ⟨1, _⟩ => show win0_1.index t (1 : Fin 2) * 256 + 1 * k.val = k.val; rw [e1]; omega

include hr in
/-- Likewise for the `c_prev` block. -/
theorem c_block_at (k : Fin 256) :
    (blockAt m c 2 t : Vec Ideal S1024x256 .f32) (ix2 p k) = ((m ((c.tc : Thread nD τ).loc main_arg2)) : S65536x256.Idx → EReal) (ix2 r k) := by
  obtain ⟨-, -, ⟨e0, e1⟩, -⟩ := index_facts t
  unfold blockAt
  rw [View.read_apply]
  show entry m c main_arg2 _ = _
  rw [entry_arg2]
  refine congrArg (m ((c : Thread nD τ).loc main_arg2)) (funext fun a => Fin.ext ?_)
  match a with
  | ⟨0, _⟩ => show win0_2.index t (0 : Fin 2) * 1024 + 1 * p.val = r.val; rw [e0, hr]; omega
  | ⟨1, _⟩ => show win0_2.index t (1 : Fin 2) * 256 + 1 * k.val = k.val; rw [e1]; omega

/-- Every point is handed the whole fused input-to-hidden matrix. -/
theorem wx_block_at (k : Fin 256) (n : Fin 1024) :
    (blockAt m c 3 t : Vec Ideal S256x1024 .bf16) (ix2 k n) = fusedWx m c (ix2 k n) := by
  obtain ⟨-, -, -, ⟨e0, e1⟩, -⟩ := index_facts t
  unfold blockAt
  rw [View.read_apply]
  show (entry m c main_v1 : S256x1024.Idx → EReal) _ = _
  rw [entry_wx]
  refine congrArg (fusedWx m c) (funext fun a => Fin.ext ?_)
  match a with
  | ⟨0, _⟩ => show win0_3.index t (0 : Fin 2) * 256 + 1 * k.val = k.val; rw [e0]; omega
  | ⟨1, _⟩ => show win0_3.index t (1 : Fin 2) * 1024 + 1 * n.val = n.val; rw [e1]; omega

/-- Every point is handed the whole fused hidden-to-hidden matrix. -/
theorem wh_block_at (k : Fin 256) (n : Fin 1024) :
    (blockAt m c 4 t : Vec Ideal S256x1024 .bf16) (ix2 k n) = fusedWh m c (ix2 k n) := by
  obtain ⟨-, -, -, -, ⟨e0, e1⟩, -⟩ := index_facts t
  unfold blockAt
  rw [View.read_apply]
  show (entry m c main_v3 : S256x1024.Idx → EReal) _ = _
  rw [entry_wh]
  refine congrArg (fusedWh m c) (funext fun a => Fin.ext ?_)
  match a with
  | ⟨0, _⟩ => show win0_4.index t (0 : Fin 2) * 256 + 1 * k.val = k.val; rw [e0]; omega
  | ⟨1, _⟩ => show win0_4.index t (1 : Fin 2) * 1024 + 1 * n.val = n.val; rw [e1]; omega

/-- Every point is handed the whole fused bias. -/
theorem bias_block_at (n : Fin 1024) :
    (blockAt m c 5 t : Vec Ideal S1024 .f32) (ix1 n) = fusedBias m c (ix1 n) := by
  obtain ⟨-, -, -, -, -, e0, -⟩ := index_facts t
  unfold blockAt
  rw [View.read_apply]
  show (entry m c main_v4 : S1024.Idx → EReal) _ = _
  rw [entry_bias]
  refine congrArg (fusedBias m c) (funext fun a => Fin.ext ?_)
  match a with
  | ⟨0, _⟩ => show win0_5.index t (0 : Fin 1) * 1024 + 1 * n.val = n.val; rw [e0]; omega

end Blocks

/-! ## What a point writes back -/

/-- The new hidden array and the new cell array, as functions of the memory handed over. -/
def newHidden (c : Dev nD) : S65536x256.Idx → EReal :=
  Cert.LstmSpec.hidden (m ((c.tc : Thread nD τ).loc main_arg0)) (m ((c.tc : Thread nD τ).loc main_arg1)) (m ((c.tc : Thread nD τ).loc main_arg2)) (fusedWx m c) (fusedWh m c) (fusedBias m c)
def newCell (c : Dev nD) : S65536x256.Idx → EReal :=
  Cert.LstmSpec.cell (m ((c.tc : Thread nD τ).loc main_arg0)) (m ((c.tc : Thread nD τ).loc main_arg1)) (m ((c.tc : Thread nD τ).loc main_arg2)) (fusedWx m c) (fusedWh m c) (fusedBias m c)

theorem hz2 : (![0, 0] : Fin 2 → Nat) = fun _ => 0 := funext fun a => by fin_cases a <;> rfl
theorem hz1 : (![0] : Fin 1 → Nat) = fun _ => 0 := funext fun a => by fin_cases a <;> rfl

/-- Point `t` writes back block `t` of the new hidden array. -/
theorem hidden_written (c : Dev nD) (t : Fin cfg0.N) :
    (dats m 0 c).flushed 6 t = ((cfg0.win 6).blk t).view.read (Elt Ideal) (newHidden m c) := by
  show (cfg0.win 6).cut (grid0.coords t) ((dats m 0 c).after 6 t) = _
  rw [after_6]
  unfold hiddenBlock
  rw [View.canon_unit_zero hz2]
  simp only [View.ld_unit_zero (S := S1024x256) hz2, View.ld_unit_zero (S := S256x1024) hz2, View.ld_unit_zero (S := S1024) hz1]
  obtain ⟨-, -, -, -, -, -, ⟨e0, e1⟩, -⟩ := index_facts t
  have ht : t.val < 64 := lt_of_lt_of_eq t.isLt N_0
  funext y
  have hy0 : (y 0).val < 1024 := (y 0).isLt
  have hy1 : (y 1).val < 256 := (y 1).isLt
  show k0_pay3 (F := Ideal) (blockAt m c 0 t) (blockAt m c 1 t) (blockAt m c 3 t) (blockAt m c 4 t) (blockAt m c 5 t) (blockAt m c 2 t) y
    = newHidden m c (((cfg0.win 6).blk t).view.emb y)
  have hr : (⟨1024 * t.val + (y 0).val, by omega⟩ : Fin 65536).val = 1024 * t.val + (⟨(y 0).val, hy0⟩ : Fin 1024).val := rfl
  refine (congrArg (k0_pay3 (F := Ideal) (blockAt m c 0 t) (blockAt m c 1 t) (blockAt m c 3 t) (blockAt m c 4 t) (blockAt m c 5 t) (blockAt m c 2 t))
    (eq_ix2 (n0 := 1024) (n1 := 256) y)).trans ?_
  refine (LstmPoint.hidden_at (m ((c.tc : Thread nD τ).loc main_arg0)) (m ((c.tc : Thread nD τ).loc main_arg1)) (m ((c.tc : Thread nD τ).loc main_arg2)) (fusedWx m c) (fusedWh m c) (fusedBias m c) ⟨1024 * t.val + (y 0).val, by omega⟩
    (blockAt m c 0 t) (blockAt m c 1 t) (blockAt m c 2 t) (blockAt m c 3 t) (blockAt m c 4 t) (blockAt m c 5 t) ⟨(y 0).val, hy0⟩
    (x_block_at m c t _ _ hr) (h_block_at m c t _ _ hr) (wx_block_at m c t) (wh_block_at m c t) (bias_block_at m c t) (c_block_at m c t _ _ hr) ⟨(y 1).val, hy1⟩).trans ?_
  unfold newHidden Cert.LstmSpec.hidden
  refine congr (congrArg _ (Fin.ext ?_)) (Fin.ext ?_)
  · show 1024 * t.val + (y 0).val = win0_6.index t (0 : Fin 2) * 1024 + 1 * (y 0).val; rw [e0]; omega
  · show (y 1).val = win0_6.index t (1 : Fin 2) * 256 + 1 * (y 1).val; rw [e1]; omega

/-- Point `t` writes back block `t` of the new cell array. -/
theorem cell_written (c : Dev nD) (t : Fin cfg0.N) :
    (dats m 0 c).flushed 7 t = ((cfg0.win 7).blk t).view.read (Elt Ideal) (newCell m c) := by
  show (cfg0.win 7).cut (grid0.coords t) ((dats m 0 c).after 7 t) = _
  rw [after_7]
  unfold cellBlock
  rw [View.canon_unit_zero hz2]
  simp only [View.ld_unit_zero (S := S1024x256) hz2, View.ld_unit_zero (S := S256x1024) hz2, View.ld_unit_zero (S := S1024) hz1]
  obtain ⟨-, -, -, -, -, -, -, ⟨e0, e1⟩⟩ := index_facts t
  have ht : t.val < 64 := lt_of_lt_of_eq t.isLt N_0
  funext y
  have hy0 : (y 0).val < 1024 := (y 0).isLt
  have hy1 : (y 1).val < 256 := (y 1).isLt
  show k0_pay2 (F := Ideal) (blockAt m c 0 t) (blockAt m c 1 t) (blockAt m c 3 t) (blockAt m c 4 t) (blockAt m c 5 t) (blockAt m c 2 t) y
    = newCell m c (((cfg0.win 7).blk t).view.emb y)
  have hr : (⟨1024 * t.val + (y 0).val, by omega⟩ : Fin 65536).val = 1024 * t.val + (⟨(y 0).val, hy0⟩ : Fin 1024).val := rfl
  refine (congrArg (k0_pay2 (F := Ideal) (blockAt m c 0 t) (blockAt m c 1 t) (blockAt m c 3 t) (blockAt m c 4 t) (blockAt m c 5 t) (blockAt m c 2 t))
    (eq_ix2 (n0 := 1024) (n1 := 256) y)).trans ?_
  refine (LstmPoint.cell_at (m ((c.tc : Thread nD τ).loc main_arg0)) (m ((c.tc : Thread nD τ).loc main_arg1)) (m ((c.tc : Thread nD τ).loc main_arg2)) (fusedWx m c) (fusedWh m c) (fusedBias m c) ⟨1024 * t.val + (y 0).val, by omega⟩
    (blockAt m c 0 t) (blockAt m c 1 t) (blockAt m c 2 t) (blockAt m c 3 t) (blockAt m c 4 t) (blockAt m c 5 t) ⟨(y 0).val, hy0⟩
    (x_block_at m c t _ _ hr) (h_block_at m c t _ _ hr) (wx_block_at m c t) (wh_block_at m c t) (bias_block_at m c t) (c_block_at m c t _ _ hr) ⟨(y 1).val, hy1⟩).trans ?_
  unfold newCell Cert.LstmSpec.cell
  refine congr (congrArg _ (Fin.ext ?_)) (Fin.ext ?_)
  · show 1024 * t.val + (y 0).val = win0_7.index t (0 : Fin 2) * 1024 + 1 * (y 0).val; rw [e0]; omega
  · show (y 1).val = win0_7.index t (1 : Fin 2) * 256 + 1 * (y 1).val; rw [e1]; omega

/-! ## The blocks tile the arrays -/

/-- An index of the hidden output is in point `t`'s block iff each coordinate lies in the block's range. -/
theorem mem_hidden_block (t : Fin cfg0.N) (i : S65536x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v5_0).slice (win0_6.rect t)).set ↔ _
  rw [View.set_slice_whole, Rect.mem_set_unit]
  exact Iff.rfl

theorem mem_cell_block (t : Fin cfg0.N) (i : S65536x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v5_1).slice (win0_7.rect t)).set ↔ _
  rw [View.set_slice_whole, Rect.mem_set_unit]
  exact Iff.rfl

/-- Row `r` lies in the block of point `r / 1024`. -/
theorem hidden_covered (i : S65536x256.Idx) : ∃ t : Fin cfg0.N, (cfg0.win 6).flush t = true ∧ i ∈ ((cfg0.win 6).blk t).view.set := by
  have hi0 : (i 0).val < 65536 := (i 0).isLt
  have hi1 : (i 1).val < 256 := (i 1).isLt
  have hN : cfg0.N = 64 := N_0
  refine ⟨⟨(i 0).val / 1024, by rw [hN]; omega⟩, flush0_6 _, ?_⟩
  obtain ⟨-, -, -, -, -, -, ⟨e0, e1⟩, -⟩ := index_facts ⟨(i 0).val / 1024, by rw [hN]; omega⟩
  rw [mem_hidden_block]
  intro a
  match a with
  | ⟨0, _⟩ =>
    show win0_6.index ⟨(i 0).val / 1024, _⟩ (0 : Fin 2) * 1024 ≤ (i 0).val ∧ (i 0).val < win0_6.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_6.index ⟨(i 0).val / 1024, _⟩ (1 : Fin 2) * 256 ≤ (i 1).val ∧ (i 1).val < win0_6.index ⟨(i 0).val / 1024, _⟩ (1 : Fin 2) * 256 + 256
    rw [e1]; omega

theorem cell_covered (i : S65536x256.Idx) : ∃ t : Fin cfg0.N, (cfg0.win 7).flush t = true ∧ i ∈ ((cfg0.win 7).blk t).view.set := by
  have hi0 : (i 0).val < 65536 := (i 0).isLt
  have hi1 : (i 1).val < 256 := (i 1).isLt
  have hN : cfg0.N = 64 := N_0
  refine ⟨⟨(i 0).val / 1024, by rw [hN]; omega⟩, flush0_7 _, ?_⟩
  obtain ⟨-, -, -, -, -, -, -, ⟨e0, e1⟩⟩ := index_facts ⟨(i 0).val / 1024, by rw [hN]; omega⟩
  rw [mem_cell_block]
  intro a
  match a with
  | ⟨0, _⟩ =>
    show win0_7.index ⟨(i 0).val / 1024, _⟩ (0 : Fin 2) * 1024 ≤ (i 0).val ∧ (i 0).val < win0_7.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_7.index ⟨(i 0).val / 1024, _⟩ (1 : Fin 2) * 256 ≤ (i 1).val ∧ (i 1).val < win0_7.index ⟨(i 0).val / 1024, _⟩ (1 : Fin 2) * 256 + 256
    rw [e1]; omega

/-! ## The arrays after the launch, and the run -/

theorem final_hidden (c : Dev nD) : (dats m 0 c).arrAt 6 cfg0.N = newHidden m c :=
  (dats m 0 c).arrAt_eq_of_cover 6 (newHidden m c) (fun t _ => hidden_written m c t) hidden_covered

theorem final_cell (c : Dev nD) : (dats m 0 c).arrAt 7 cfg0.N = newCell m c :=
  (dats m 0 c).arrAt_eq_of_cover 7 (newCell m c) (fun t _ => cell_written m c t) cell_covered

/-- Every weakly fair execution terminates without a fault with the first result at the new hidden array, the second
    at the new cell array, and the fifteen arguments unchanged. -/
theorem run : θ_run defs (onTc (τ := τ) (main (F := Ideal))) ⟨m, fun _ => 0, ρ⟩ fun r => ∀ c : Dev nD,
      r.2.mem ((c.tc : Thread nD τ).loc main_v5_0) = newHidden m c
      ∧ r.2.mem ((c.tc : Thread nD τ).loc main_v5_1) = newCell m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 6).trans (final_hidden m c), ((h c).1 7).trans (final_cell m c),
      args_kept_of m (dats m) (A_eq m) r h c⟩)
    (run_main m ρ)

end Cert.KernelIdeal.LstmValue

end
-- ==== Proof.LstmRef.lean ====
import proofs.«150040_j1090921693307_2_alg».proof.Proof.Gen.ReferenceIdeal.Read
import proofs.«150040_j1090921693307_2_alg».proof.Proof.LstmSpec
import Idealize.ShloMosaic.Lib.IdealHost

/-!
# The reference program computes one LSTM cell step

Entry by entry, the reference's two results are the new cell state and the new hidden state of
`Cert.LstmSpec`, taken at the three argument arrays and the three fused (concatenated) weight arrays.
-/

noncomputable section

namespace Cert.ReferenceIdeal.LstmRef

open Cert.ReferenceIdeal Cert.ReferenceIdeal.Gen Idealize.ShloMosaic Idealize.ShloMosaic.ValueIdx

/-- The three kinds of argument arrays: a batch of rows, one gate's square matrix, one gate's bias. -/
abbrev RowsC : Type := (⟨S65536x256, .f32⟩ : BufTy).Contents (Elt Ideal)
abbrev SqC : Type := (⟨S256x256, .f32⟩ : BufTy).Contents (Elt Ideal)
abbrev VecC : Type := (⟨S256, .f32⟩ : BufTy).Contents (Elt Ideal)

/-- `1 / (1 + e^(−y))` is the logistic function, by definition. -/
theorem div_one_add_exp_neg (y : EReal) : Ideal.div 1 (1 + Ideal.exp (-y)) = Ideal.logistic y := rfl

/-- The fused pre-activation array, entry by entry: `(x·Wx + h·Wh) + b`. -/
theorem gate_eq (x0 x1 : RowsC) (x3 x4 : SqC) (x5 : VecC) (x6 x7 : SqC) (x8 : VecC) (x9 x10 : SqC) (x11 : VecC)
    (x12 x13 : SqC) (x14 : VecC) (i : S65536x1024.Idx) :
    Read.val_main_v8 (F := Ideal) x0 x1 x3 x4 x5 x6 x7 x8 x9 x10 x11 x12 x13 x14 i
      = Cert.LstmSpec.gate x0 x1 (Read.val_main_v0 (F := Ideal) x3 x6 x9 x12) (Read.val_main_v1 (F := Ideal) x4 x7 x10 x13)
          (Read.val_main_v2 (F := Ideal) x5 x8 x11 x14) (i 0) (i 1) := by
  rw [Read.val_main_v8_apply, Read.val_main_v5_apply, Read.val_main_v3_apply, Read.val_main_v4_apply,
    Read.val_main_v7_apply, Read.val_main_v6_apply]
  generalize Read.val_main_v0 (F := Ideal) x3 x6 x9 x12 = wx
  generalize Read.val_main_v1 (F := Ideal) x4 x7 x10 x13 = wh
  generalize Read.val_main_v2 (F := Ideal) x5 x8 x11 x14 = b
  have e3 : (∑ k : Fin 256, x0 (Read.lidx_main_v3 i k) * wx (Read.ridx_main_v3 i k))
      = ∑ k : Fin 256, x0 (ix2 (n0 := 65536) (n1 := 256) (i 0) k) * wx (ix2 (n0 := 256) (n1 := 1024) k (i 1)) :=
    Finset.sum_congr rfl fun k _ => by
      have hl : Read.lidx_main_v3 i k = ix2 (n0 := 65536) (n1 := 256) (i 0) k :=
        funext fun a => Fin.ext (by match a with | ⟨0, _⟩ => rfl | ⟨1, _⟩ => rfl)
      have hr : Read.ridx_main_v3 i k = ix2 (n0 := 256) (n1 := 1024) k (i 1) :=
        funext fun a => Fin.ext (by match a with | ⟨0, _⟩ => rfl | ⟨1, _⟩ => rfl)
      rw [hl, hr]
  have e4 : (∑ k : Fin 256, x1 (Read.lidx_main_v4 i k) * wh (Read.ridx_main_v4 i k))
      = ∑ k : Fin 256, x1 (ix2 (n0 := 65536) (n1 := 256) (i 0) k) * wh (ix2 (n0 := 256) (n1 := 1024) k (i 1)) :=
    Finset.sum_congr rfl fun k _ => by
      have hl : Read.lidx_main_v4 i k = ix2 (n0 := 65536) (n1 := 256) (i 0) k :=
        funext fun a => Fin.ext (by match a with | ⟨0, _⟩ => rfl | ⟨1, _⟩ => rfl)
      have hr : Read.ridx_main_v4 i k = ix2 (n0 := 256) (n1 := 1024) k (i 1) :=
        funext fun a => Fin.ext (by match a with | ⟨0, _⟩ => rfl | ⟨1, _⟩ => rfl)
      rw [hl, hr]
  have e6 : Read.idx_main_v6 (Read.idx_main_v7 i) = ix1 (n := 1024) (i 1) :=
    funext fun a => Fin.ext (by match a with | ⟨0, _⟩ => rfl)
  rw [e3, e4, e6]
  rfl

/-- The reference's spelling of the logistic function: `1 / (1 + e^(−y))`, the constant one given by its bit pattern. -/
theorem host_logistic (y : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf y)))
      = Ideal.logistic y := by
  rw [Ideal.ofBits_def, Ideal.ofBits_one_f32]
  rfl

/-- The column slice starting at `0` of the pre-activation array: the input gate's columns. -/
theorem gate_slice0 (x0 x1 : RowsC) (x3 x4 : SqC) (x5 : VecC) (x6 x7 : SqC) (x8 : VecC) (x9 x10 : SqC) (x11 : VecC)
    (x12 x13 : SqC) (x14 : VecC) (i : S65536x256.Idx) :
    Read.val_main_v8 (F := Ideal) x0 x1 x3 x4 x5 x6 x7 x8 x9 x10 x11 x12 x13 x14 (Read.idx_main_v9 i)
      = Cert.LstmSpec.gate x0 x1 (Read.val_main_v0 (F := Ideal) x3 x6 x9 x12) (Read.val_main_v1 (F := Ideal) x4 x7 x10 x13)
          (Read.val_main_v2 (F := Ideal) x5 x8 x11 x14) (i 0) (Cert.LstmSpec.col 0 (by decide) (i 1)) := by
  rw [gate_eq]
  have hc : Read.idx_main_v9 i 1 = Cert.LstmSpec.col 0 (by decide) (i 1) := Fin.ext (Nat.zero_add _).symm
  rw [hc]
  rfl

/-- The column slice starting at `256`: the forget gate's columns. -/
theorem gate_slice256 (x0 x1 : RowsC) (x3 x4 : SqC) (x5 : VecC) (x6 x7 : SqC) (x8 : VecC) (x9 x10 : SqC) (x11 : VecC)
    (x12 x13 : SqC) (x14 : VecC) (i : S65536x256.Idx) :
    Read.val_main_v8 (F := Ideal) x0 x1 x3 x4 x5 x6 x7 x8 x9 x10 x11 x12 x13 x14 (Read.idx_main_v10 i)
      = Cert.LstmSpec.gate x0 x1 (Read.val_main_v0 (F := Ideal) x3 x6 x9 x12) (Read.val_main_v1 (F := Ideal) x4 x7 x10 x13)
          (Read.val_main_v2 (F := Ideal) x5 x8 x11 x14) (i 0) (Cert.LstmSpec.col 256 (by decide) (i 1)) := by
  rw [gate_eq]
  rfl

/-- The column slice starting at `512`: the output gate's columns. -/
theorem gate_slice512 (x0 x1 : RowsC) (x3 x4 : SqC) (x5 : VecC) (x6 x7 : SqC) (x8 : VecC) (x9 x10 : SqC) (x11 : VecC)
    (x12 x13 : SqC) (x14 : VecC) (i : S65536x256.Idx) :
    Read.val_main_v8 (F := Ideal) x0 x1 x3 x4 x5 x6 x7 x8 x9 x10 x11 x12 x13 x14 (Read.idx_main_v11 i)
      = Cert.LstmSpec.gate x0 x1 (Read.val_main_v0 (F := Ideal) x3 x6 x9 x12) (Read.val_main_v1 (F := Ideal) x4 x7 x10 x13)
          (Read.val_main_v2 (F := Ideal) x5 x8 x11 x14) (i 0) (Cert.LstmSpec.col 512 (by decide) (i 1)) := by
  rw [gate_eq]
  rfl

/-- The column slice starting at `768`: the candidate's columns. -/
theorem gate_slice768 (x0 x1 : RowsC) (x3 x4 : SqC) (x5 : VecC) (x6 x7 : SqC) (x8 : VecC) (x9 x10 : SqC) (x11 : VecC)
    (x12 x13 : SqC) (x14 : VecC) (i : S65536x256.Idx) :
    Read.val_main_v8 (F := Ideal) x0 x1 x3 x4 x5 x6 x7 x8 x9 x10 x11 x12 x13 x14 (Read.idx_main_v12 i)
      = Cert.LstmSpec.gate x0 x1 (Read.val_main_v0 (F := Ideal) x3 x6 x9 x12) (Read.val_main_v1 (F := Ideal) x4 x7 x10 x13)
          (Read.val_main_v2 (F := Ideal) x5 x8 x11 x14) (i 0) (Cert.LstmSpec.col 768 (by decide) (i 1)) := by
  rw [gate_eq]
  rfl

/-- The input gate: the logistic function of its pre-activation. -/
theorem input_eq (x0 x1 : RowsC) (x3 x4 : SqC) (x5 : VecC) (x6 x7 : SqC) (x8 : VecC) (x9 x10 : SqC) (x11 : VecC)
    (x12 x13 : SqC) (x14 : VecC) (i : S65536x256.Idx) :
    Read.val_main_v18 (F := Ideal) x0 x1 x3 x4 x5 x6 x7 x8 x9 x10 x11 x12 x13 x14 i
      = Ideal.logistic (Cert.LstmSpec.gate x0 x1 (Read.val_main_v0 (F := Ideal) x3 x6 x9 x12) (Read.val_main_v1 (F := Ideal) x4 x7 x10 x13)
          (Read.val_main_v2 (F := Ideal) x5 x8 x11 x14) (i 0) (Cert.LstmSpec.col 0 (by decide) (i 1))) := by
  rw [Read.val_main_v18_apply, Read.val_main_v17_apply, Read.val_main_cst_0_apply, Read.val_main_v16_apply,
    Read.val_main_v15_apply, Read.val_main_cst_apply, Read.val_main_v14_apply, Read.val_main_v13_apply,
    Read.val_main_v9_apply, gate_slice0, host_logistic]

/-- The forget gate: the logistic function of its pre-activation. -/
theorem forget_eq (x0 x1 : RowsC) (x3 x4 : SqC) (x5 : VecC) (x6 x7 : SqC) (x8 : VecC) (x9 x10 : SqC) (x11 : VecC)
    (x12 x13 : SqC) (x14 : VecC) (i : S65536x256.Idx) :
    Read.val_main_v24 (F := Ideal) x0 x1 x3 x4 x5 x6 x7 x8 x9 x10 x11 x12 x13 x14 i
      = Ideal.logistic (Cert.LstmSpec.gate x0 x1 (Read.val_main_v0 (F := Ideal) x3 x6 x9 x12) (Read.val_main_v1 (F := Ideal) x4 x7 x10 x13)
          (Read.val_main_v2 (F := Ideal) x5 x8 x11 x14) (i 0) (Cert.LstmSpec.col 256 (by decide) (i 1))) := by
  rw [Read.val_main_v24_apply, Read.val_main_v23_apply, Read.val_main_cst_2_apply, Read.val_main_v22_apply,
    Read.val_main_v21_apply, Read.val_main_cst_1_apply, Read.val_main_v20_apply, Read.val_main_v19_apply,
    Read.val_main_v10_apply, gate_slice256, host_logistic]

/-- The output gate: the logistic function of its pre-activation. -/
theorem output_eq (x0 x1 : RowsC) (x3 x4 : SqC) (x5 : VecC) (x6 x7 : SqC) (x8 : VecC) (x9 x10 : SqC) (x11 : VecC)
    (x12 x13 : SqC) (x14 : VecC) (i : S65536x256.Idx) :
    Read.val_main_v30 (F := Ideal) x0 x1 x3 x4 x5 x6 x7 x8 x9 x10 x11 x12 x13 x14 i
      = Ideal.logistic (Cert.LstmSpec.gate x0 x1 (Read.val_main_v0 (F := Ideal) x3 x6 x9 x12) (Read.val_main_v1 (F := Ideal) x4 x7 x10 x13)
          (Read.val_main_v2 (F := Ideal) x5 x8 x11 x14) (i 0) (Cert.LstmSpec.col 512 (by decide) (i 1))) := by
  rw [Read.val_main_v30_apply, Read.val_main_v29_apply, Read.val_main_cst_4_apply, Read.val_main_v28_apply,
    Read.val_main_v27_apply, Read.val_main_cst_3_apply, Read.val_main_v26_apply, Read.val_main_v25_apply,
    Read.val_main_v11_apply, gate_slice512, host_logistic]

/-- The candidate: the hyperbolic tangent of its pre-activation. -/
theorem candidate_eq (x0 x1 : RowsC) (x3 x4 : SqC) (x5 : VecC) (x6 x7 : SqC) (x8 : VecC) (x9 x10 : SqC) (x11 : VecC)
    (x12 x13 : SqC) (x14 : VecC) (i : S65536x256.Idx) :
    Read.val_main_v31 (F := Ideal) x0 x1 x3 x4 x5 x6 x7 x8 x9 x10 x11 x12 x13 x14 i
      = Ideal.tanh (Cert.LstmSpec.gate x0 x1 (Read.val_main_v0 (F := Ideal) x3 x6 x9 x12) (Read.val_main_v1 (F := Ideal) x4 x7 x10 x13)
          (Read.val_main_v2 (F := Ideal) x5 x8 x11 x14) (i 0) (Cert.LstmSpec.col 768 (by decide) (i 1))) := by
  rw [Read.val_main_v31_apply, Read.val_main_v12_apply, gate_slice768, Ideal.hostUnary_tanh_def]

/-- The new cell state, entry by entry: forget gate times old cell state plus input gate times candidate. -/
theorem cell_apply (x0 x1 x2 : RowsC) (x3 x4 : SqC) (x5 : VecC) (x6 x7 : SqC) (x8 : VecC) (x9 x10 : SqC) (x11 : VecC)
    (x12 x13 : SqC) (x14 : VecC) (i : S65536x256.Idx) :
    Read.val_main_v34 (F := Ideal) x0 x1 x2 x3 x4 x5 x6 x7 x8 x9 x10 x11 x12 x13 x14 i
      = Cert.LstmSpec.cellAt x0 x1 x2 (Read.val_main_v0 (F := Ideal) x3 x6 x9 x12) (Read.val_main_v1 (F := Ideal) x4 x7 x10 x13)
          (Read.val_main_v2 (F := Ideal) x5 x8 x11 x14) (i 0) (i 1) := by
  rw [Read.val_main_v34_apply, Read.val_main_v32_apply, Read.val_main_v33_apply, forget_eq, input_eq, candidate_eq]
  have h2 : x2 i = x2 (ix2 (n0 := 65536) (n1 := 256) (i 0) (i 1)) := congrArg x2 (eq_ix2 i)
  rw [h2]
  rfl

/-- The new hidden state, entry by entry: output gate times the hyperbolic tangent of the new cell state. -/
theorem hidden_apply (x0 x1 x2 : RowsC) (x3 x4 : SqC) (x5 : VecC) (x6 x7 : SqC) (x8 : VecC) (x9 x10 : SqC) (x11 : VecC)
    (x12 x13 : SqC) (x14 : VecC) (i : S65536x256.Idx) :
    Read.val_main_v36 (F := Ideal) x0 x1 x2 x3 x4 x5 x6 x7 x8 x9 x10 x11 x12 x13 x14 i
      = Cert.LstmSpec.hiddenAt x0 x1 x2 (Read.val_main_v0 (F := Ideal) x3 x6 x9 x12) (Read.val_main_v1 (F := Ideal) x4 x7 x10 x13)
          (Read.val_main_v2 (F := Ideal) x5 x8 x11 x14) (i 0) (i 1) := by
  rw [Read.val_main_v36_apply, Read.val_main_v35_apply, output_eq, cell_apply, Ideal.hostUnary_tanh_def]
  rfl

/-- The reference's first result is the specification's new hidden array. -/
theorem hidden_eq (x0 x1 x2 : (⟨S65536x256, .f32⟩ : BufTy).Contents (Elt Ideal))
    (x3 x4 : (⟨S256x256, .f32⟩ : BufTy).Contents (Elt Ideal)) (x5 : (⟨S256, .f32⟩ : BufTy).Contents (Elt Ideal))
    (x6 x7 : (⟨S256x256, .f32⟩ : BufTy).Contents (Elt Ideal)) (x8 : (⟨S256, .f32⟩ : BufTy).Contents (Elt Ideal))
    (x9 x10 : (⟨S256x256, .f32⟩ : BufTy).Contents (Elt Ideal)) (x11 : (⟨S256, .f32⟩ : BufTy).Contents (Elt Ideal))
    (x12 x13 : (⟨S256x256, .f32⟩ : BufTy).Contents (Elt Ideal)) (x14 : (⟨S256, .f32⟩ : BufTy).Contents (Elt Ideal)) :
    Read.val_main_v36 (F := Ideal) x0 x1 x2 x3 x4 x5 x6 x7 x8 x9 x10 x11 x12 x13 x14
      = Cert.LstmSpec.hidden x0 x1 x2 (Read.val_main_v0 (F := Ideal) x3 x6 x9 x12) (Read.val_main_v1 (F := Ideal) x4 x7 x10 x13)
          (Read.val_main_v2 (F := Ideal) x5 x8 x11 x14) :=
  funext fun i => hidden_apply x0 x1 x2 x3 x4 x5 x6 x7 x8 x9 x10 x11 x12 x13 x14 i

/-- The reference's second result is the specification's new cell array. -/
theorem cell_eq (x0 x1 x2 : (⟨S65536x256, .f32⟩ : BufTy).Contents (Elt Ideal))
    (x3 x4 : (⟨S256x256, .f32⟩ : BufTy).Contents (Elt Ideal)) (x5 : (⟨S256, .f32⟩ : BufTy).Contents (Elt Ideal))
    (x6 x7 : (⟨S256x256, .f32⟩ : BufTy).Contents (Elt Ideal)) (x8 : (⟨S256, .f32⟩ : BufTy).Contents (Elt Ideal))
    (x9 x10 : (⟨S256x256, .f32⟩ : BufTy).Contents (Elt Ideal)) (x11 : (⟨S256, .f32⟩ : BufTy).Contents (Elt Ideal))
    (x12 x13 : (⟨S256x256, .f32⟩ : BufTy).Contents (Elt Ideal)) (x14 : (⟨S256, .f32⟩ : BufTy).Contents (Elt Ideal)) :
    Read.val_main_v34 (F := Ideal) x0 x1 x2 x3 x4 x5 x6 x7 x8 x9 x10 x11 x12 x13 x14
      = Cert.LstmSpec.cell x0 x1 x2 (Read.val_main_v0 (F := Ideal) x3 x6 x9 x12) (Read.val_main_v1 (F := Ideal) x4 x7 x10 x13)
          (Read.val_main_v2 (F := Ideal) x5 x8 x11 x14) :=
  funext fun i => cell_apply x0 x1 x2 x3 x4 x5 x6 x7 x8 x9 x10 x11 x12 x13 x14 i

end Cert.ReferenceIdeal.LstmRef

end
-- ==== Proof.lean ====
/-
  One LSTM cell step, fused: the kernel against its jnp reference, over the extended reals.

  Both programs first lay the four gates' input-to-hidden matrices side by side (likewise the hidden-to-hidden matrices
  and the biases). The reference then forms the whole pre-activation array `(x·Wx + h·Wh) + b`, slices it into the four
  gates and combines them, spelling the logistic function as `1 / (1 + e^(−y))`. The kernel rounds the fused matrices to
  bf16 (the identity on extended reals), and a launch over 64 grid points does the same arithmetic on 1024 rows at a
  time, with the logistic function as one operation — which over the extended reals is that same expression.

  Three frames: each program terminates, faults nowhere and leaves its arguments unchanged — for the kernel, at both
  instances, from the per-point body triple handed to the pipeline library (`LstmLaunchBits`, `LstmLaunchIdeal`); for
  the reference from its run. The idealization rewrote nothing, so its preservation claim is trivial. The value claim:
  after the launch each output array is the specification's function of the arguments (`LstmValue`: each point writes
  one block of it, and the blocks tile the arrays), and the reference's two results are the same functions (`LstmRef`);
  the sums, products and sums of products appear in the same order on both sides, so nothing about finiteness is used.
-/
import proofs.«150040_j1090921693307_2_alg».proof.Defs
import proofs.«150040_j1090921693307_2_alg».proof.Proof.Gen.Kernel
import proofs.«150040_j1090921693307_2_alg».proof.Proof.Gen.KernelIdeal
import proofs.«150040_j1090921693307_2_alg».proof.Proof.Gen.ReferenceIdeal
import proofs.«150040_j1090921693307_2_alg».proof.Proof.Gen.ReferenceIdeal.Run
import proofs.«150040_j1090921693307_2_alg».proof.Proof.Gen.ReferenceIdeal.Read
import proofs.«150040_j1090921693307_2_alg».proof.Proof.Gen.Pre_finite_inputs
import proofs.«150040_j1090921693307_2_alg».proof.Proof.LstmLaunchBits
import proofs.«150040_j1090921693307_2_alg».proof.Proof.LstmLaunchIdeal
import proofs.«150040_j1090921693307_2_alg».proof.Proof.LstmValue
import proofs.«150040_j1090921693307_2_alg».proof.Proof.LstmRef

noncomputable section

namespace Cert.Proof

open Idealize.ShloMosaic Idealize.SL.Sem

/-- The kernel as printed runs to its end and leaves its arguments unchanged. -/
theorem frame_kernel : Cert.frame_Kernel := fun m ρ _ => Cert.Kernel.Launch.args_unchanged m ρ

/-- So does its idealization. -/
theorem frame_kernel_ideal : Cert.frame_KernelIdeal := fun m ρ _ => Cert.KernelIdeal.Launch.args_unchanged m ρ

/-- So does the reference: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization changed no operation. -/
theorem preserves : Cert.preserves_Kernel_KernelIdeal := trivial

/-- From memories agreeing on the fifteen arguments, the kernel's two output arrays and the reference's two results
    are the new hidden array and the new cell array of the same arguments. -/
theorem algebraic : Cert.algebraic_KernelIdeal_ReferenceIdeal := by
  intro m ρ m' ρ' _ hagree
  refine ⟨fun c => Cert.KernelIdeal.LstmValue.newHidden m c, fun c => Cert.KernelIdeal.LstmValue.newCell m c,
    Cert.KernelIdeal.LstmValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14⟩ := hagree c
    rw [Cert.ReferenceIdeal.Read.val_main_v36_eq, Cert.ReferenceIdeal.LstmRef.hidden_eq, h0, h1, h2, h3, h4, h5, h6, h7, h8, h9, h10, h11, h12, h13, h14]
    rfl
  · obtain ⟨h0, h1, h2, h3, h4, h5, h6, h7, h8, h9, h10, h11, h12, h13, h14⟩ := hagree c
    rw [Cert.ReferenceIdeal.Read.val_main_v34_eq, Cert.ReferenceIdeal.LstmRef.cell_eq, h0, h1, h2, h3, h4, h5, h6, h7, h8, h9, h10, h11, h12, h13, h14]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
